-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128 : Shape := ⟨1, ![128]⟩
abbrev S128x128 : Shape := ⟨2, ![128, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S50000x128 .f32) (main_arg2 : FVec F S128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128 : Shape := ⟨1, ![128]⟩
abbrev S128x128 : Shape := ⟨2, ![128, 128]⟩
abbrev S2x800000 : Shape := ⟨2, ![2, 800000]⟩
abbrev S2000x128 : Shape := ⟨2, ![2000, 128]⟩
abbrev S2000 : Shape := ⟨1, ![2000]⟩
abbrev S2000x1 : Shape := ⟨2, ![2000, 1]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩

abbrev nBuf : Space → Nat
  | .hbm => 41
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S2x800000, .i32⟩
  | .hbm, ⟨10, _⟩ => ⟨S50000x128, .f32⟩
  | .hbm, ⟨11, _⟩ => ⟨S50000x128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S50000x1, .f32⟩
  | .hbm, ⟨33, _⟩ => ⟨S800000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128 : Shape := ⟨1, ![128]⟩
abbrev S128x128 : Shape := ⟨2, ![128, 128]⟩
abbrev S2x800000 : Shape := ⟨2, ![2, 800000]⟩
abbrev S_ : Shape := ⟨0, ![]⟩
abbrev S50000 : Shape := ⟨1, ![50000]⟩
abbrev S50000x1 : Shape := ⟨2, ![50000, 1]⟩
abbrev S1x128 : Shape := ⟨2, ![1, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S2x800000, .i32⟩
  | .hbm, ⟨10, _⟩ => ⟨S_, .f32⟩
  | .hbm, ⟨11, _⟩ => ⟨S50000, .f32⟩
  | .hbm, ⟨12, _⟩ => ⟨S50000x1, .f32⟩
  | .hbm, ⟨13, _⟩ => ⟨S_, .f32⟩
  | .hbm, ⟨14, _⟩ => ⟨S50000x1, .f32⟩
  | .hbm, ⟨15, _⟩ => ⟨S50000x1, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S_, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S1x800000, .i32⟩
  | .hbm, ⟨52, _⟩ => ⟨S800000, .i32⟩
  | .hbm, ⟨53, _⟩ => ⟨S1x800000, .i32⟩
  | .hbm, ⟨54, _⟩ => ⟨S800000, .i32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S_, .f32⟩
  | .hbm, ⟨69, _⟩ => ⟨S800000x1, .f32⟩
  | .hbm, ⟨70, _⟩ => ⟨S_, .f32⟩
  | .hbm, ⟨71, _⟩ => ⟨S50000x1, .f32⟩
  | .hbm, ⟨72, _⟩ => ⟨S800000x1, .i32⟩
  | .hbm, ⟨73, _⟩ => ⟨S50000x1, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S128x128, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KernelRun.lean ====
/-
  The idealized kernel's run with its result buffer named.

  @main is two pallas_call regions with a stretch of host operations between them. The run through
  the three segments ends, on every core, with every unscoped buffer at the contents the fold through
  the segments gives (region 0's write-backs, the host stretch applied to them, region 1's
  write-backs): so the result buffer ends at that fold's value there, and each argument buffer at
  its launch contents. What that value IS, as a function of the arguments, is the business of the
  modules that read the fold; here only the run is stated.
-/
import proofs.«158922_j824633721540_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the
    last boundary's contents and every argument buffer as launched. -/
theorem run : θ_run defs (onTc (τ := τ) (main (F := F))) ⟨m, fun _ => 0, ρ⟩ (fun r => ∀ c : Dev nD,
      r.2.mem ((c.tc : Thread nD τ).loc main_v23) = W3 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v23 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Whole

end
-- ==== Proof.Spec.lean ====
/-
  What one SAGE block computes, row by row, on the extended reals.

  A node's feature row is 128 extended reals. LayerNorm takes the row's mean `m = (Σ x_k) / 128` and
  variance `v = (Σ (x_k - m)²) / 128`, scales the centred row by `(v + ε)^(-1/2)`, applies the affine
  pair (γ, β), clips at zero and multiplies by the dropout mask: the hidden row. The message row is
  the hidden row through the projection `Wp` (entry c is `Σ_k h_k · Wp(c, k)`, the transposed
  product), plus the bias, clipped at zero. After the mean aggregation over the graph's edges (which
  both programs compute by the same host operations, and which stays unopened here), the output row is
  `agg · Wlᵀ + bl + h · Wrᵀ`, summed in that order.

  Every float literal stays the word both programs print; nothing here needs a value of any of them.
-/
import Idealize.ShloMosaic.PureOps.Ideal
import Idealize.ShloMosaic.PureOps.Ideal.Laws
import Idealize.ShloMosaic.Lib.ValueIdx

noncomputable section

namespace Cert.SageBlock

open Idealize.ShloMosaic Idealize.ShloMosaic.ValueIdx

/-- One node's 128 features. -/
abbrev Row := Fin 128 → EReal

/-- The shape of a per-node array, of a per-feature vector and of a weight matrix. -/
abbrev Nodes : Shape := ⟨2, ![50000, 128]⟩
abbrev Feat : Shape := ⟨1, ![128]⟩
abbrev Weight : Shape := ⟨2, ![128, 128]⟩

/-- Row `r` of a per-node array. -/
def rowOf (X : Nodes.Idx → EReal) (r : Fin 50000) : Row := fun k => X (ix2 r k)

/-- The row's mean: its sum over 128. -/
def mean (x : Row) : EReal := Ideal.div (∑ k : Fin 128, x k) (Ideal.ofBits .f32 0x43000000#32)

/-- The row minus its mean. -/
def centred (x : Row) : Row := fun k => x k - mean x

/-- The row's (biased) variance: the sum of the centred squares over 128. -/
def variance (x : Row) : EReal :=
  Ideal.div (∑ k : Fin 128, centred x k * centred x k) (Ideal.ofBits .f32 0x43000000#32)

/-- LayerNorm with its affine pair, clipped at zero, times the dropout mask's row. -/
def hiddenRow (x mk : Row) (γ β : Feat.Idx → EReal) : Row := fun j =>
  max (centred x j * Ideal.rsqrt (variance x + Ideal.ofBits .f32 0x3727C5AC#32) * γ (ix1 j) + β (ix1 j))
    (Ideal.ofBits .f32 0x00000000#32) * mk j

/-- A row through a linear layer stored output-major: entry `c` is `Σ_k h_k · W(c, k)`. -/
def linRow (h : Row) (W : Weight.Idx → EReal) : Row := fun c => ∑ k : Fin 128, h k * W (ix2 c k)

/-- The projected message: linear layer, bias, clipped at zero. -/
def messageRow (h : Row) (Wp : Weight.Idx → EReal) (bp : Feat.Idx → EReal) : Row := fun c =>
  max (linRow h Wp c + bp (ix1 c)) (Ideal.ofBits .f32 0x00000000#32)

/-- The block's output row from the aggregated row and the hidden row. -/
def outRow (a h : Row) (Wl : Weight.Idx → EReal) (bl : Feat.Idx → EReal) (Wr : Weight.Idx → EReal) : Row := fun c =>
  linRow a Wl c + bl (ix1 c) + linRow h Wr c

/-- The three per-node arrays, each row by the row function above. -/
def hidden (X M : Nodes.Idx → EReal) (γ β : Feat.Idx → EReal) : Nodes.Idx → EReal := fun i =>
  hiddenRow (rowOf X (i 0)) (rowOf M (i 0)) γ β (i 1)

def message (H : Nodes.Idx → EReal) (Wp : Weight.Idx → EReal) (bp : Feat.Idx → EReal) : Nodes.Idx → EReal := fun i =>
  messageRow (rowOf H (i 0)) Wp bp (i 1)

def combine (A H : Nodes.Idx → EReal) (Wl : Weight.Idx → EReal) (bl : Feat.Idx → EReal) (Wr : Weight.Idx → EReal) :
    Nodes.Idx → EReal := fun i =>
  outRow (rowOf A (i 0)) (rowOf H (i 0)) Wl bl Wr (i 1)

theorem hidden_at (X M : Nodes.Idx → EReal) (γ β : Feat.Idx → EReal) (r : Fin 50000) (j : Fin 128) :
    hidden X M γ β (ix2 r j) = hiddenRow (rowOf X r) (rowOf M r) γ β j := rfl

theorem message_at (H : Nodes.Idx → EReal) (Wp : Weight.Idx → EReal) (bp : Feat.Idx → EReal) (r : Fin 50000) (c : Fin 128) :
    message H Wp bp (ix2 r c) = messageRow (rowOf H r) Wp bp c := rfl

theorem combine_at (A H : Nodes.Idx → EReal) (Wl : Weight.Idx → EReal) (bl : Feat.Idx → EReal) (Wr : Weight.Idx → EReal)
    (r : Fin 50000) (c : Fin 128) :
    combine A H Wl bl Wr (ix2 r c) = outRow (rowOf A r) (rowOf H r) Wl bl Wr c := rfl

/-- The hidden array's row `r` is the hidden row of the inputs' rows `r`. -/
theorem rowOf_hidden (X M : Nodes.Idx → EReal) (γ β : Feat.Idx → EReal) (r : Fin 50000) :
    rowOf (hidden X M γ β) r = hiddenRow (rowOf X r) (rowOf M r) γ β := rfl

end Cert.SageBlock

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.Payload.lean ====
/-
  The kernel bodies' arithmetic read at one index of a 2000 x 128 block, on the extended reals.

  Three facts, one per stored block. The LayerNorm block at (p, q) is the hidden row of row p of the input and of
  the mask, at q. The projected block at (p, q) is the message row of that hidden row, at q: the product's left
  operand is the hidden block itself and its right operand is the projection matrix transposed, so entry (p, q)
  sums h_k * Wp(q, k) over k. The combine block at (p, q) is the output row of row p of the aggregated block and of
  the hidden block, at q. Each proof reads the pointwise operations through an index, the row sums as finite sums
  over the column coordinate, the keepdims column as the per-row value, the bias row as the per-column value, the
  transpose as the swapped index and the product into the zero accumulator as the sum of products.
-/
import proofs.«158922_j824633721540_2_alg».proof.Proof.Gen.KernelIdeal.Skeleton
import proofs.«158922_j824633721540_2_alg».proof.Proof.Spec
import proofs.«158922_j824633721540_2_alg».proof.Proof.LibMatmulRows
import proofs.«158922_j824633721540_2_alg».proof.Proof.LibKeepdims
import proofs.«158922_j824633721540_2_alg».proof.Proof.LibReduceAt
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Cert.SageBlock Idealize.ShloMosaic Idealize.ShloMosaic.ValueIdx

/-! ## The layout operations of these blocks, read at an index -/

/-- A row's sum from the zero word, read at the row: the finite sum over the column coordinate. -/
theorem rowsum_at (v : FVec Ideal S2000x128 .f32) (hr : S2000x128.Reduces [1] S2000)
    (hφ : FTy.f32 = FTy.f32 ∨ FTy.f32 = FTy.bf16) (hacc : (0x00000000#32 : BitVec FTy.f32.bits) = 0x00000000#32) (p : Fin 2000) :
    multiReduction .add [1] S2000 v 0x00000000#32 hr hφ hacc (ix1 p) = ∑ k : Fin 128, v (ix2 p k) :=
  ReduceAt.row_sum_apply v 0x00000000#32 hr hφ hacc p

/-- A per-row vector as a 2000 x 1 column reads the vector at the row. -/
theorem col_at (w : FVec Ideal S2000 .f32) (hs : S2000.ShapeCasts S2000x1) (p : Fin 2000) (u : Fin 1) :
    shapeCast S2000x1 w hs (ix2 p u) = w (ix1 p) :=
  Keepdims.shapeCast_a_a1_apply w hs p u

/-- A 2000 x 1 column spread over 128 columns reads the column at the row. -/
theorem spread_at (c : FVec Ideal S2000x1 .f32) (hb : S2000x1.Broadcasts S2000x128) (p : Fin 2000) (q : Fin 128) :
    broadcastTo S2000x128 c hb (ix2 p q) = c (ix2 p (0 : Fin 1)) :=
  Keepdims.broadcastTo_a1_ab_apply c hb p q

/-- A per-column vector as a 1 x 128 row spread over 2000 rows reads the vector at the column. -/
theorem bias_at (w : FVec Ideal S128 .f32) (hs : S128.ShapeCasts S1x128) (hb : S1x128.Broadcasts S2000x128)
    (p : Fin 2000) (q : Fin 128) :
    broadcastTo S2000x128 (shapeCast S1x128 w hs) hb (ix2 p q) = w (ix1 q) :=
  (broadcastTo_1b_ab_apply (shapeCast S1x128 w hs) hb p q).trans (shapeCast_a_1a_apply w hs 0 q)

/-- A 128 x 128 matrix transposed reads, at (k, c), the matrix at (c, k). -/
theorem transposed_at {φ : FTy} (w : FVec Ideal S128x128 φ) (ht : S128x128.Transposes [1, 0] S128x128) (k c : Fin 128) :
    transpose S128x128 [1, 0] w ht (ix2 k c) = w (ix2 c k) :=
  transpose_ix2_apply w ht k c

/-- The reciprocal square root of a block reads through an index. -/
theorem rsqrt_at {s : Shape} (v : FVec Ideal s .f32) (i : s.Idx) : rsqrt v i = Ideal.rsqrt (v i) := rfl

/-! ## The product of a 2000 x 128 block with a 128 x 128 matrix -/

/-- The left free axis of the product's dimension numbers is the result's row. -/
theorem dot_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right free axis of the product's dimension numbers is the result's column. -/
theorem dot_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product into the zero accumulator at (p, q), with the left operand's row p and the right operand's column q
    named: the sum of their products. -/
theorem product_at {φ₁ φ₂ : FTy} (a : FVec Ideal S2000x128 φ₁) (b : FVec Ideal S128x128 φ₂) (p : Fin 2000) (q : Fin 128)
    (L R : Fin 128 → EReal) (hl : ∀ k, a (ix2 p k) = L k) (hr : ∀ k, b (ix2 k q) = R k) :
    matmul dot_S2000x128_S128x128_S2000x128_1_0_0_1_n_n none a b (constant (F := Ideal) S2000x128 .f32 0x00000000#32) (ix2 p q)
      = ∑ k : Fin 128, L k * R k :=
  MatmulRows.matmul_zero_rows dot_S2000x128_S128x128_S2000x128_1_0_0_1_n_n none rfl rfl rfl rfl dot_lhs0 dot_rhs1
    a b (ix2 p q) L R hl hr

/-! ## The three blocks -/

/-- The LayerNorm block at (p, q): the hidden row of the input's and the mask's rows p, at q. -/
theorem hidden_payload (x0 mk : Vec Ideal S2000x128 .f32) (g b : Vec Ideal S128 .f32) (p : Fin 2000) (q : Fin 128) :
    Gen.k0_pay2 (F := Ideal) x0 g b mk (ix2 p q)
      = hiddenRow (fun k => x0 (ix2 p k)) (fun k => mk (ix2 p k)) g b q := by
  unfold Gen.k0_pay2
  -- the first row sum is over the input's row
  have h1 := rowsum_at x0 reduces_S2000x128_S2000 (.inl rfl) rfl p
  simp only [mulf_apply, maximumf_apply, addf_apply, subf_apply, divf_apply, broadcast_apply, rsqrt_at,
    spread_at, col_at, bias_at, h1]
  -- the second is over the centred squares, each read through the same mean
  rw [rowsum_at _ reduces_S2000x128_S2000 (.inl rfl) rfl p]
  simp only [mulf_apply, subf_apply, divf_apply, broadcast_apply, spread_at, col_at, h1]
  rfl

/-- The projected block at (p, q): the message row of the hidden row p, at q. -/
theorem message_payload (x0 mk : Vec Ideal S2000x128 .f32) (g b : Vec Ideal S128 .f32) (w : Vec Ideal S128x128 .f32)
    (bp : Vec Ideal S128 .f32) (p : Fin 2000) (q : Fin 128) :
    Gen.k0_pay1 (F := Ideal) (Gen.k0_pay3 x0 g b mk w bp) (Scalar.ofBits .f32 0x00000000#32) (ix2 p q)
      = messageRow (hiddenRow (fun k => x0 (ix2 p k)) (fun k => mk (ix2 p k)) g b) w bp q := by
  unfold Gen.k0_pay1 Gen.k0_pay3
  simp only [maximumf_apply, addf_apply, broadcast_apply, bias_at]
  -- the left operand's row p is the hidden row; the right operand's column q is row q of the projection matrix
  have hl : ∀ k : Fin 128, (truncf .bf16 (Gen.k0_pay2 (F := Ideal) x0 g b mk) bitsLt_bf16_f32 : FVec Ideal S2000x128 .bf16) (ix2 p k)
      = hiddenRow (fun k => x0 (ix2 p k)) (fun k => mk (ix2 p k)) g b k := fun k => hidden_payload x0 mk g b p k
  have hr : ∀ k : Fin 128, transpose S128x128 [1, 0] (truncf .bf16 w bitsLt_bf16_f32 : FVec Ideal S128x128 .bf16)
      transposes_S128x128_p1_0_S128x128 (ix2 k q) = w (ix2 q k) := fun k => transposed_at _ _ k q
  rw [product_at _ _ p q _ _ hl hr]
  rfl

/-- The combine block at (p, q): the output row of the aggregated row p and the hidden row p, at q. -/
theorem combine_payload (a h : Vec Ideal S2000x128 .f32) (wl wr : Vec Ideal S128x128 .f32) (bl : Vec Ideal S128 .f32)
    (p : Fin 2000) (q : Fin 128) :
    Gen.k1_pay1 (F := Ideal) a h wl wr bl (ix2 p q)
      = outRow (fun k => a (ix2 p k)) (fun k => h (ix2 p k)) wl bl wr q := by
  unfold Gen.k1_pay1
  simp only [addf_apply, bias_at]
  have hla : ∀ k : Fin 128, (truncf .bf16 (shapeCast S2000x128 a shapeCasts_S2000x128_S2000x128) bitsLt_bf16_f32 : FVec Ideal S2000x128 .bf16) (ix2 p k)
      = a (ix2 p k) := fun k => congrFun (shapeCast_self a _) (ix2 p k)
  have hlh : ∀ k : Fin 128, (truncf .bf16 (shapeCast S2000x128 h shapeCasts_S2000x128_S2000x128) bitsLt_bf16_f32 : FVec Ideal S2000x128 .bf16) (ix2 p k)
      = h (ix2 p k) := fun k => congrFun (shapeCast_self h _) (ix2 p k)
  have hrl : ∀ k : Fin 128, transpose S128x128 [1, 0] (truncf .bf16 wl bitsLt_bf16_f32 : FVec Ideal S128x128 .bf16)
      transposes_S128x128_p1_0_S128x128 (ix2 k q) = wl (ix2 q k) := fun k => transposed_at _ _ k q
  have hrr : ∀ k : Fin 128, transpose S128x128 [1, 0] (truncf .bf16 wr bitsLt_bf16_f32 : FVec Ideal S128x128 .bf16)
      transposes_S128x128_p1_0_S128x128 (ix2 k q) = wr (ix2 q k) := fun k => transposed_at _ _ k q
  rw [product_at _ _ p q _ _ hla hrl, product_at _ _ p q _ _ hlh hrr]
  rfl

end Cert.KernelIdeal.Payload

end
-- ==== Proof.Blocks0.lean ====
/-
  Region 0 (LayerNorm, clip, mask, projection) from blocks to arrays.

  The kernel runs over 25 grid points; point t loads rows 2000 t … 2000 t + 1999 of the input and of the
  dropout mask, the whole affine pair, projection matrix and bias, and writes back the same 2000 rows of the
  hidden array and of the message array. Each written row is a function of the loaded row alone (the row
  functions of the specification), so block t of each output IS block t of one whole-array function of the
  arguments; the 25 blocks tile the 50000 rows (row r lies in block r / 2000), hence after the region each
  output array is that function.
-/
import proofs.«158922_j824633721540_2_alg».proof.Proof.Gen.KernelIdeal.Frame
import proofs.«158922_j824633721540_2_alg».proof.Proof.Spec
import proofs.«158922_j824633721540_2_alg».proof.Proof.Payload
import Idealize.ShloMosaic.Lib.Pipeline.Value
import Idealize.ShloMosaic.Lib.ValueIdx

set_option maxRecDepth 16384

noncomputable section

namespace Cert.KernelIdeal.Blocks0

open Cert.KernelIdeal Cert.KernelIdeal.Gen Cert.SageBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Row `p` of the `n`-th block of 2000 rows is row `2000 n + p` of the array. -/
def blockRow (n : Nat) (hn : n < 25) (p : Fin 2000) : Fin 50000 := ⟨n * 2000 + p.val, by have := p.isLt; omega⟩

/-- The LayerNorm-and-project kernel's index maps over its 25 grid points: the four per-node windows sit at
    block (t, 0), the affine pair, the projection and its bias at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem lt0 (t : Fin cfg0.N) : t.val < 25 := Nat.lt_of_lt_of_eq t.isLt N_0

theorem emb0_0 (t : Fin cfg0.N) (p : Fin 2000) (k : Fin 128) :
    ((cfg0.win 0).blk t).view.emb (ix2 p k) = ix2 (blockRow t.val (lt0 t) p) k := by
  obtain ⟨e0, e1, -⟩ := idx0 t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem emb0_1 (t : Fin cfg0.N) (p : Fin 2000) (k : Fin 128) :
    ((cfg0.win 1).blk t).view.emb (ix2 p k) = ix2 (blockRow t.val (lt0 t) p) k := by
  obtain ⟨-, -, e0, e1, -⟩ := idx0 t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem emb0_6 (t : Fin cfg0.N) (p : Fin 2000) (k : Fin 128) :
    ((cfg0.win 6).blk t).view.emb (ix2 p k) = ix2 (blockRow t.val (lt0 t) p) k := by
  obtain ⟨-, -, -, -, -, -, -, -, -, e0, e1, -⟩ := idx0 t
  funext a; apply Fin.ext
  match a with
  | ⟨0, _⟩ => show win0_6.index t (0 : Fin 2) * 2000 + 1 * p.val = t.val * 2000 + p.val; omega
  | ⟨1, _⟩ => show win0_6.index t (1 : Fin 2) * 128 + 1 * k.val = k.val; omega

theorem emb0_7 (t : Fin cfg0.N) (p : Fin 2000) (k : Fin 128) :
    ((cfg0.win 7).blk t).view.emb (ix2 p k) = ix2 (blockRow t.val (lt0 t) p) k := by
  obtain ⟨-, -, -, -, -, -, -, -, -, -, -, e0, e1⟩ := idx0 t
  funext a; apply Fin.ext
  match a with
  | ⟨0, _⟩ => show win0_7.index t (0 : Fin 2) * 2000 + 1 * p.val = t.val * 2000 + p.val; omega
  | ⟨1, _⟩ => show win0_7.index t (1 : Fin 2) * 128 + 1 * k.val = k.val; omega

/-- The input's block at point `t`, row `p`, is the array's row `2000 t + p`. -/
theorem row0_0 (c : Dev nD) (t : Fin cfg0.N) (p : Fin 2000) :
    (fun k : Fin 128 => iblk0 V c 0 t (ix2 p k)) = rowOf (V c main_arg0) (blockRow t.val (lt0 t) p) :=
  funext fun k => by
    show V c main_arg0 (((cfg0.win 0).blk t).view.emb (ix2 p k)) = V c main_arg0 (ix2 (blockRow t.val (lt0 t) p) k)
    rw [emb0_0]

theorem row0_1 (c : Dev nD) (t : Fin cfg0.N) (p : Fin 2000) :
    (fun k : Fin 128 => iblk0 V c 1 t (ix2 p k)) = rowOf (V c main_arg1) (blockRow t.val (lt0 t) p) :=
  funext fun k => by
    show V c main_arg1 (((cfg0.win 1).blk t).view.emb (ix2 p k)) = V c main_arg1 (ix2 (blockRow t.val (lt0 t) p) k)
    rw [emb0_1]

/-- The affine pair's, the projection's and the bias's one block is the whole array. -/
theorem whole0_2 (c : Dev nD) (t : Fin cfg0.N) : iblk0 V c 2 t = V c main_arg2 :=
  funext fun y => by
    show V c main_arg2 (((cfg0.win 2).blk t).view.emb y) = V c main_arg2 y
    obtain ⟨-, -, -, -, e0, -⟩ := idx0 t
    refine congrArg (V c main_arg2) (funext fun a => Fin.ext ?_)
    match a with
    | ⟨0, _⟩ => show win0_2.index t (0 : Fin 1) * 128 + 1 * (y 0).val = (y 0).val; omega

theorem whole0_3 (c : Dev nD) (t : Fin cfg0.N) : iblk0 V c 3 t = V c main_arg3 :=
  funext fun y => by
    show V c main_arg3 (((cfg0.win 3).blk t).view.emb y) = V c main_arg3 y
    obtain ⟨-, -, -, -, -, e0, -⟩ := idx0 t
    refine congrArg (V c main_arg3) (funext fun a => Fin.ext ?_)
    match a with
    | ⟨0, _⟩ => show win0_3.index t (0 : Fin 1) * 128 + 1 * (y 0).val = (y 0).val; omega

theorem whole0_4 (c : Dev nD) (t : Fin cfg0.N) : iblk0 V c 4 t = V c main_arg4 :=
  funext fun y => by
    show V c main_arg4 (((cfg0.win 4).blk t).view.emb y) = V c main_arg4 y
    obtain ⟨-, -, -, -, -, -, e0, e1, -⟩ := idx0 t
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega

theorem whole0_5 (c : Dev nD) (t : Fin cfg0.N) : iblk0 V c 5 t = V c main_arg5 :=
  funext fun y => by
    show V c main_arg5 (((cfg0.win 5).blk t).view.emb y) = V c main_arg5 y
    obtain ⟨-, -, -, -, -, -, -, -, e0, -⟩ := idx0 t
    refine congrArg (V c main_arg5) (funext fun a => Fin.ext ?_)
    match a with
    | ⟨0, _⟩ => show win0_5.index t (0 : Fin 1) * 128 + 1 * (y 0).val = (y 0).val; omega

/-- What grid point `t` writes back to the hidden array is block `t` of the hidden array of the inputs. -/
theorem flushed0_6 (c : Dev nD) (t : Fin cfg0.N) :
    (dat0 V c).flushed 6 t = ((cfg0.win 6).blk t).view.read (Elt Ideal)
      (hidden (V c main_arg0) (V c main_arg1) (V c main_arg2) (V c main_arg3)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128) hz1]
  funext y
  show k0_pay2 (iblk0 V c 0 t) (iblk0 V c 2 t) (iblk0 V c 3 t) (iblk0 V c 1 t) y
    = hidden (V c main_arg0) (V c main_arg1) (V c main_arg2) (V c main_arg3) (((cfg0.win 6).blk t).view.emb y)
  obtain ⟨p, q, rfl⟩ : ∃ (p : Fin 2000) (q : Fin 128), y = ix2 p q := ⟨y 0, y 1, eq_ix2 y⟩
  refine (Payload.hidden_payload (iblk0 V c 0 t) (iblk0 V c 1 t) (iblk0 V c 2 t) (iblk0 V c 3 t) p q).trans ?_
  rw [emb0_6, hidden_at, row0_0 V c t p, row0_1 V c t p, whole0_2 V c t, whole0_3 V c t]

/-- What grid point `t` writes back to the message array is block `t` of the message array of the inputs. -/
theorem flushed0_7 (c : Dev nD) (t : Fin cfg0.N) :
    (dat0 V c).flushed 7 t = ((cfg0.win 7).blk t).view.read (Elt Ideal)
      (message (hidden (V c main_arg0) (V c main_arg1) (V c main_arg2) (V c main_arg3)) (V c main_arg4) (V c main_arg5)) := by
  show (cfg0.win 7).cut (grid0.coords t) ((dat0 V c).after 7 t) = _
  rw [after0_7]
  unfold out0_7
  rw [View.canon_unit_zero hz2]
  simp only [View.ld_unit_zero (S := S2000x128) hz2, View.ld_unit_zero (S := S128x128) hz2, View.ld_unit_zero (S := S128) hz1]
  funext y
  show k0_pay1 (k0_pay3 (iblk0 V c 0 t) (iblk0 V c 2 t) (iblk0 V c 3 t) (iblk0 V c 1 t) (iblk0 V c 4 t) (iblk0 V c 5 t)) (Scalar.ofBits .f32 0x00000000#32) y
    = message (hidden (V c main_arg0) (V c main_arg1) (V c main_arg2) (V c main_arg3)) (V c main_arg4) (V c main_arg5) (((cfg0.win 7).blk t).view.emb y)
  obtain ⟨p, q, rfl⟩ : ∃ (p : Fin 2000) (q : Fin 128), y = ix2 p q := ⟨y 0, y 1, eq_ix2 y⟩
  refine (Payload.message_payload (iblk0 V c 0 t) (iblk0 V c 1 t) (iblk0 V c 2 t) (iblk0 V c 3 t) (iblk0 V c 4 t) (iblk0 V c 5 t) p q).trans ?_
  rw [emb0_7, message_at, rowOf_hidden, row0_0 V c t p, row0_1 V c t p, whole0_2 V c t, whole0_3 V c t, whole0_4 V c t, whole0_5 V c t]

theorem mem_blk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v0_0).slice (win0_6.rect t)).set ↔ _
  rw [View.set_slice_whole, Rect.mem_set_unit]
  exact Iff.rfl

theorem mem_blk0_7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v0_1).slice (win0_7.rect t)).set ↔ _
  rw [View.set_slice_whole, Rect.mem_set_unit]
  exact Iff.rfl

/-- Every index lies in the block of the point its row divided by 2000 names. -/
theorem cover0_6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 2000, Nat.lt_of_lt_of_eq (by omega : (i 0).val / 2000 < 25) N_0.symm⟩
  obtain ⟨-, -, -, -, -, -, -, -, -, e0, e1, -⟩ := idx0 t
  refine ⟨t, flush0_6 t, ?_⟩
  rw [mem_blk0_6]
  intro a
  have ht : t.val = (i 0).val / 2000 := rfl
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

theorem cover0_7 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := ⟨(i 0).val / 2000, Nat.lt_of_lt_of_eq (by omega : (i 0).val / 2000 < 25) N_0.symm⟩
  obtain ⟨-, -, -, -, -, -, -, -, -, -, -, e0, e1⟩ := idx0 t
  refine ⟨t, flush0_7 t, ?_⟩
  rw [mem_blk0_7]
  intro a
  have ht : t.val = (i 0).val / 2000 := rfl
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The hidden array after region 0. -/
theorem final0_6 (c : Dev nD) :
    (dat0 V c).arrAt 6 cfg0.N = hidden (V c main_arg0) (V c main_arg1) (V c main_arg2) (V c main_arg3) :=
  (dat0 V c).arrAt_eq_of_cover 6 _ (fun t _ => flushed0_6 V c t) cover0_6

/-- The message array after region 0. -/
theorem final0_7 (c : Dev nD) :
    (dat0 V c).arrAt 7 cfg0.N
      = message (hidden (V c main_arg0) (V c main_arg1) (V c main_arg2) (V c main_arg3)) (V c main_arg4) (V c main_arg5) :=
  (dat0 V c).arrAt_eq_of_cover 7 _ (fun t _ => flushed0_7 V c t) cover0_7

end Cert.KernelIdeal.Blocks0
end
-- ==== Proof.Blocks1.lean ====
/-
  Region 1 (the two linear layers and their sum) from blocks to the array.

  Point t of the 25 loads rows 2000 t … 2000 t + 1999 of the aggregated array and of the hidden array, the
  two whole weight matrices and the bias, and writes back the same rows of the output. A written row is the
  output row function of the two loaded rows, so block t of the output is block t of the combined array of
  the buffers the region finds, and the 25 blocks tile the 50000 rows.
-/
import proofs.«158922_j824633721540_2_alg».proof.Proof.Gen.KernelIdeal.Frame
import proofs.«158922_j824633721540_2_alg».proof.Proof.Spec
import proofs.«158922_j824633721540_2_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.SageBlock
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Row `p` of the `n`-th block of 2000 rows is row `2000 n + p` of the array. -/
def blockRow (n : Nat) (hn : n < 25) (p : Fin 2000) : Fin 50000 := ⟨n * 2000 + p.val, by have := p.isLt; omega⟩

/-- The combine kernel's index maps over its 25 grid points: the three per-node windows sit at block (t, 0),
    the weights and the bias at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 25 := Nat.lt_of_lt_of_eq t.isLt N_1

theorem emb1_0 (t : Fin cfg1.N) (p : Fin 2000) (k : Fin 128) :
    ((cfg1.win 0).blk t).view.emb (ix2 p k) = ix2 (blockRow t.val (lt1 t) p) k := by
  obtain ⟨e0, e1, -⟩ := idx1 t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem emb1_1 (t : Fin cfg1.N) (p : Fin 2000) (k : Fin 128) :
    ((cfg1.win 1).blk t).view.emb (ix2 p k) = ix2 (blockRow t.val (lt1 t) p) k := by
  obtain ⟨-, -, e0, e1, -⟩ := idx1 t
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

theorem emb1_5 (t : Fin cfg1.N) (p : Fin 2000) (k : Fin 128) :
    ((cfg1.win 5).blk t).view.emb (ix2 p k) = ix2 (blockRow t.val (lt1 t) p) k := by
  obtain ⟨-, -, -, -, -, -, -, -, -, e0, e1⟩ := idx1 t
  funext a; apply Fin.ext
  match a with
  | ⟨0, _⟩ => show win1_5.index t (0 : Fin 2) * 2000 + 1 * p.val = t.val * 2000 + p.val; omega
  | ⟨1, _⟩ => show win1_5.index t (1 : Fin 2) * 128 + 1 * k.val = k.val; omega

/-- The aggregated array's block at point `t`, row `p`, is the array's row `2000 t + p`. -/
theorem row1_0 (c : Dev nD) (t : Fin cfg1.N) (p : Fin 2000) :
    (fun k : Fin 128 => iblk1 V c 0 t (ix2 p k)) = rowOf (V c main_v22) (blockRow t.val (lt1 t) p) :=
  funext fun k => by
    show V c main_v22 (((cfg1.win 0).blk t).view.emb (ix2 p k)) = V c main_v22 (ix2 (blockRow t.val (lt1 t) p) k)
    rw [emb1_0]

theorem row1_1 (c : Dev nD) (t : Fin cfg1.N) (p : Fin 2000) :
    (fun k : Fin 128 => iblk1 V c 1 t (ix2 p k)) = rowOf (V c main_v0_0) (blockRow t.val (lt1 t) p) :=
  funext fun k => by
    show V c main_v0_0 (((cfg1.win 1).blk t).view.emb (ix2 p k)) = V c main_v0_0 (ix2 (blockRow t.val (lt1 t) p) k)
    rw [emb1_1]

/-- A weight's or the bias's one block is the whole array. -/
theorem whole1_2 (c : Dev nD) (t : Fin cfg1.N) : iblk1 V c 2 t = V c main_arg6 :=
  funext fun y => by
    show V c main_arg6 (((cfg1.win 2).blk t).view.emb y) = V c main_arg6 y
    obtain ⟨-, -, -, -, e0, e1, -⟩ := idx1 t
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega

theorem whole1_3 (c : Dev nD) (t : Fin cfg1.N) : iblk1 V c 3 t = V c main_arg7 :=
  funext fun y => by
    show V c main_arg7 (((cfg1.win 3).blk t).view.emb y) = V c main_arg7 y
    obtain ⟨-, -, -, -, -, -, e0, -⟩ := idx1 t
    refine congrArg (V c main_arg7) (funext fun a => Fin.ext ?_)
    match a with
    | ⟨0, _⟩ => show win1_3.index t (0 : Fin 1) * 128 + 1 * (y 0).val = (y 0).val; omega

theorem whole1_4 (c : Dev nD) (t : Fin cfg1.N) : iblk1 V c 4 t = V c main_arg8 :=
  funext fun y => by
    show V c main_arg8 (((cfg1.win 4).blk t).view.emb y) = V c main_arg8 y
    obtain ⟨-, -, -, -, -, -, -, e0, e1, -⟩ := idx1 t
    refine congrArg (V c main_arg8) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega

/-- What grid point `t` writes back is block `t` of the combined array of the buffers the region finds. -/
theorem flushed1 (c : Dev nD) (t : Fin cfg1.N) :
    (dat1 V c).flushed 5 t = ((cfg1.win 5).blk t).view.read (Elt Ideal)
      (combine (V c main_v22) (V c main_v0_0) (V c main_arg6) (V c main_arg7) (V c main_arg8)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  funext y
  show k1_pay1 (iblk1 V c 0 t) (iblk1 V c 1 t) (iblk1 V c 2 t) (iblk1 V c 4 t) (iblk1 V c 3 t) y
    = combine (V c main_v22) (V c main_v0_0) (V c main_arg6) (V c main_arg7) (V c main_arg8) (((cfg1.win 5).blk t).view.emb y)
  obtain ⟨p, q, rfl⟩ : ∃ (p : Fin 2000) (q : Fin 128), y = ix2 p q := ⟨y 0, y 1, eq_ix2 y⟩
  refine (Payload.combine_payload (iblk1 V c 0 t) (iblk1 V c 1 t) (iblk1 V c 2 t) (iblk1 V c 4 t) (iblk1 V c 3 t) p q).trans ?_
  rw [emb1_5, combine_at, row1_0 V c t p, row1_1 V c t p, whole1_2 V c t, whole1_3 V c t, whole1_4 V c t]

/-- An index of the output array is in point `t`'s block iff its row is among the block's 2000. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v23).slice (win1_5.rect t)).set ↔ _
  rw [View.set_slice_whole, Rect.mem_set_unit]
  exact Iff.rfl

/-- Every index lies in the block of the point its row divided by 2000 names. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, Nat.lt_of_lt_of_eq (by omega : (i 0).val / 2000 < 25) N_1.symm⟩
  obtain ⟨-, -, -, -, -, -, -, -, -, e0, e1⟩ := idx1 t
  refine ⟨t, flush1_5 t, ?_⟩
  rw [mem_blk1]
  intro a
  have ht : t.val = (i 0).val / 2000 := rfl
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after region 1: the combined array of the buffers the region finds. -/
theorem final1 (c : Dev nD) :
    (dat1 V c).arrAt 5 cfg1.N = combine (V c main_v22) (V c main_v0_0) (V c main_arg6) (V c main_arg7) (V c main_arg8) :=
  (dat1 V c).arrAt_eq_of_cover 5 _ (fun t _ => flushed1 V c t) cover1

end Cert.KernelIdeal.Blocks
end
-- ==== Proof.Stretch.lean ====
/-
  The host stretch between the two kernels: the mean aggregation over the graph's edges.

  The stretch's 28 operations read the message array and the edge list and write the aggregated array; they
  write none of the buffers the second kernel also reads (the hidden array, its weights, its bias). The
  aggregation is carried as ONE function of (message array, edge list): the reference applies the same
  operations in the same order, so neither the gather nor a scatter is ever opened.
-/
import proofs.«158922_j824633721540_2_alg».proof.Proof.Gen.KernelIdeal.Launch
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-- The mean aggregation over the graph's edges as the host stretch between the two kernels computes it, of
    any message array `p` and the edge list `e`: gather the rows of `p` at the (wrapped) source indices,
    scatter-add them at the target indices into zeros, scatter-add ones at the target indices into zeros for
    the in-degree, clip the degree below at one, and divide. The gather and the two scatters stay unopened. -/
def aggK (p : (⟨S50000x128, .f32⟩ : BufTy).Contents (Elt Ideal)) (e : (⟨S2x800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0
        (shapeCast _ (extractStridedSlice S1x800000 ![1, 0] e slices_S2x800000_S1x800000_1_0) shapeCasts_S1x800000_S800000))
      (Host.gather gather_S50000x128_S800000x1_S800000x128_1_0_n_n_0_1_1128 p
        (broadcastInDim S800000x1 ![0] bcast_S800000_S800000x1_0
          (select
            (cmpi .slt
              (shapeCast _ (extractStridedSlice S1x800000 ![0, 0] e slices_S2x800000_S1x800000_0_0) shapeCasts_S1x800000_S800000)
              (broadcastInDim S800000 ![] bcast_S_S800000 (constantI S_ 32 0#32)))
            (addi
              (shapeCast _ (extractStridedSlice S1x800000 ![0, 0] e slices_S2x800000_S1x800000_0_0) shapeCasts_S1x800000_S800000)
              (broadcastInDim S800000 ![] bcast_S_S800000 (constantI S_ 32 50000#32)))
            (shapeCast _ (extractStridedSlice S1x800000 ![0, 0] e slices_S2x800000_S1x800000_0_0) shapeCasts_S1x800000_S800000)))))
    (broadcastInDim S50000x128 ![0, 1] bcast_S50000x1_S50000x128_0_1
      (maximumf
        (Host.scatterAdd (F := Ideal) scatter_S50000x1_S800000x1_S800000x1_1_0_0_1
          (broadcastInDim S50000x1 ![] bcast_S_S50000x1 (constant (F := Ideal) S_ .f32 0x00000000#32))
          (broadcastInDim S800000x1 ![0] bcast_S800000_S800000x1_0
            (shapeCast _ (extractStridedSlice S1x800000 ![1, 0] e slices_S2x800000_S1x800000_1_0) shapeCasts_S1x800000_S800000))
          (broadcastInDim S800000x1 ![] bcast_S_S800000x1 (constant (F := Ideal) S_ .f32 0x3F800000#32)))
        (broadcastInDim S50000x1 ![] bcast_S_S50000x1 (constant (F := Ideal) S_ .f32 0x3F800000#32))))

variable (W : Valuation τ sig (Elt Ideal))

set_option maxHeartbeats 4000000 in
/-- After the stretch the aggregated buffer holds the aggregation of the message buffer and the edge list as the
    stretch found them. -/
theorem agg_read :
    StableHlo.after (hostOps1 (F := Ideal)) W (Proc.devRef .tc main_v22)
      = aggK (W (Proc.devRef .tc main_v0_1)) (W (Proc.devRef .tc main_arg9)) := by
  after_results
  rfl

/-- The stretch writes neither the hidden buffer nor the second kernel's weights and bias. -/
theorem keep_hidden : StableHlo.after (hostOps1 (F := Ideal)) W (Proc.devRef .tc main_v0_0) = W (Proc.devRef .tc main_v0_0) := by
  after_results
theorem keep_arg6 : StableHlo.after (hostOps1 (F := Ideal)) W (Proc.devRef .tc main_arg6) = W (Proc.devRef .tc main_arg6) := by
  after_results
theorem keep_arg7 : StableHlo.after (hostOps1 (F := Ideal)) W (Proc.devRef .tc main_arg7) = W (Proc.devRef .tc main_arg7) := by
  after_results
theorem keep_arg8 : StableHlo.after (hostOps1 (F := Ideal)) W (Proc.devRef .tc main_arg8) = W (Proc.devRef .tc main_arg8) := by
  after_results

end Cert.KernelIdeal.Stretch
end
-- ==== Proof.KernelValue.lean ====
/-
  The idealized kernel's result as one function of its arguments.

  Reading the fold through @main's three segments backwards: the result buffer is region 1's output array,
  the combined array of what region 1 finds; it finds the aggregated array the host stretch made from
  region 0's message array and the edge list, the hidden array region 0 left, and the launch's weights and
  bias; region 0's two arrays are the hidden and message arrays of the launch arguments.
-/
import proofs.«158922_j824633721540_2_alg».proof.Proof.KernelRun
import proofs.«158922_j824633721540_2_alg».proof.Proof.Blocks0
import proofs.«158922_j824633721540_2_alg».proof.Proof.Blocks1
import proofs.«158922_j824633721540_2_alg».proof.Proof.Stretch

set_option maxRecDepth 16384

noncomputable section

namespace Cert.KernelIdeal.Whole

open Cert.KernelIdeal Cert.KernelIdeal.Gen Cert.SageBlock
open Idealize.ShloMosaic Idealize.ShloMosaic.TcCoe Idealize.SL.Sem
open Cert.KernelIdeal.Stretch (aggK)

variable (m : (ℓ : Loc nD τ sig) → Buf (Elt Ideal) ℓ) (ρ : Dev nD → PrngReg)

/-- The block's output on core `c`, as one function of the argument arrays at launch: the hidden array, its
    projected messages aggregated over the edges, and the two linear layers summed. -/
def result (c : Dev nD) : Buf (Elt Ideal) ((c.tc : Thread nD τ).loc main_v23) :=
  combine
    (aggK
      (message
        (hidden (m ((c.tc : Thread nD τ).loc main_arg0)) (m ((c.tc : Thread nD τ).loc main_arg1))
          (m ((c.tc : Thread nD τ).loc main_arg2)) (m ((c.tc : Thread nD τ).loc main_arg3)))
        (m ((c.tc : Thread nD τ).loc main_arg4)) (m ((c.tc : Thread nD τ).loc main_arg5)))
      (m ((c.tc : Thread nD τ).loc main_arg9)))
    (hidden (m ((c.tc : Thread nD τ).loc main_arg0)) (m ((c.tc : Thread nD τ).loc main_arg1))
      (m ((c.tc : Thread nD τ).loc main_arg2)) (m ((c.tc : Thread nD τ).loc main_arg3)))
    (m ((c.tc : Thread nD τ).loc main_arg6)) (m ((c.tc : Thread nD τ).loc main_arg7)) (m ((c.tc : Thread nD τ).loc main_arg8))

/-- After region 0 the hidden buffer holds the hidden array of the launch arguments. -/
theorem W1_hidden (c : Dev nD) :
    W1 m ρ c (Proc.devRef .tc main_v0_0)
      = hidden (m ((c.tc : Thread nD τ).loc main_arg0)) (m ((c.tc : Thread nD τ).loc main_arg1))
          (m ((c.tc : Thread nD τ).loc main_arg2)) (m ((c.tc : Thread nD τ).loc main_arg3)) :=
  (W1_arr m ρ c 6).trans (Blocks0.final0_6 (V0 m ρ) c)

/-- After region 0 the message buffer holds the message array of the launch arguments. -/
theorem W1_message (c : Dev nD) :
    W1 m ρ c (Proc.devRef .tc main_v0_1)
      = message (hidden (m ((c.tc : Thread nD τ).loc main_arg0)) (m ((c.tc : Thread nD τ).loc main_arg1))
          (m ((c.tc : Thread nD τ).loc main_arg2)) (m ((c.tc : Thread nD τ).loc main_arg3)))
          (m ((c.tc : Thread nD τ).loc main_arg4)) (m ((c.tc : Thread nD τ).loc main_arg5)) :=
  (W1_arr m ρ c 7).trans (Blocks0.final0_7 (V0 m ρ) c)

/-- Region 0 leaves the edge list and the second kernel's weights and bias as launched. -/
theorem W1_arg9 (c : Dev nD) : W1 m ρ c (Proc.devRef .tc main_arg9) = m ((c.tc : Thread nD τ).loc main_arg9) :=
  W1_of_ne m ρ c main_arg9 (by decide)
theorem W1_arg6 (c : Dev nD) : W1 m ρ c (Proc.devRef .tc main_arg6) = m ((c.tc : Thread nD τ).loc main_arg6) :=
  W1_of_ne m ρ c main_arg6 (by decide)
theorem W1_arg7 (c : Dev nD) : W1 m ρ c (Proc.devRef .tc main_arg7) = m ((c.tc : Thread nD τ).loc main_arg7) :=
  W1_of_ne m ρ c main_arg7 (by decide)
theorem W1_arg8 (c : Dev nD) : W1 m ρ c (Proc.devRef .tc main_arg8) = m ((c.tc : Thread nD τ).loc main_arg8) :=
  W1_of_ne m ρ c main_arg8 (by decide)

/-- The result buffer at the last boundary is the block's output of the launch arguments. -/
theorem W3_result (c : Dev nD) : W3 m ρ c (Proc.devRef .tc main_v23) = result m c := by
  refine (W3_arr m ρ c 5).trans ((Blocks.final1 (V2 m ρ) c).trans ?_)
  have h22 : V2 m ρ c main_v22 = aggK (W1 m ρ c (Proc.devRef .tc main_v0_1)) (W1 m ρ c (Proc.devRef .tc main_arg9)) :=
    Stretch.agg_read (W1 m ρ c)
  have hh : V2 m ρ c main_v0_0 = W1 m ρ c (Proc.devRef .tc main_v0_0) := Stretch.keep_hidden (W1 m ρ c)
  have h6 : V2 m ρ c main_arg6 = W1 m ρ c (Proc.devRef .tc main_arg6) := Stretch.keep_arg6 (W1 m ρ c)
  have h7 : V2 m ρ c main_arg7 = W1 m ρ c (Proc.devRef .tc main_arg7) := Stretch.keep_arg7 (W1 m ρ c)
  have h8 : V2 m ρ c main_arg8 = W1 m ρ c (Proc.devRef .tc main_arg8) := Stretch.keep_arg8 (W1 m ρ c)
  rw [h22, hh, h6, h7, h8, W1_message, W1_hidden, W1_arg9, W1_arg6, W1_arg7, W1_arg8]
  rfl

end Cert.KernelIdeal.Whole
end
-- ==== Proof.RefBridge.lean ====
/-
  The reference program's result, stage by stage, is the specification's.

  The reference computes LayerNorm, relu and the dropout mask (the hidden array), then the projection with its
  bias and relu (the message array), then the mean aggregation over the edge list by a gather, two scatter-adds,
  a clip of the degree at one and a division, and last the two linear layers and their sum. The hidden array, the
  message array and the final combination are read index by index and matched with the specification's rows;
  the aggregation is kept as one unopened term `agg` of the message array and the edge list.
-/
import proofs.«158922_j824633721540_2_alg».proof.Proof.Gen.ReferenceIdeal.Read
import proofs.«158922_j824633721540_2_alg».proof.Proof.Spec

noncomputable section

namespace Cert.ReferenceIdeal.Bridge

open Cert.ReferenceIdeal Cert.ReferenceIdeal.Gen Cert.ReferenceIdeal.Read Cert.SageBlock Idealize.ShloMosaic Idealize.ShloMosaic.ValueIdx

/-- A per-node array, a per-feature vector, a weight matrix and the edge list, at the ideal instance. -/
abbrev NodeArr := (⟨S50000x128, .f32⟩ : BufTy).Contents (Elt Ideal)
abbrev FeatVec := (⟨S128, .f32⟩ : BufTy).Contents (Elt Ideal)
abbrev WeightMat := (⟨S128x128, .f32⟩ : BufTy).Contents (Elt Ideal)
abbrev EdgeList := (⟨S2x800000, .i32⟩ : BufTy).Contents (Elt Ideal)

/-- The mean aggregation as the reference computes it, of any message array `p` and the edge list `e`:
    gather the rows of `p` at the (wrapped) source indices, scatter-add them at the target indices into
    zeros, scatter-add ones at the target indices into zeros for the in-degree, clip the degree below at
    one, and divide. The gather and the two scatters stay unopened. -/
def agg (p : (⟨S50000x128, .f32⟩ : BufTy).Contents (Elt Ideal)) (e : (⟨S2x800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0
        (shapeCast _ (extractStridedSlice S1x800000 ![1, 0] e slices_S2x800000_S1x800000_1_0) shapeCasts_S1x800000_S800000))
      (Host.gather gather_S50000x128_S800000x1_S800000x128_1_0_n_n_0_1_1128 p
        (broadcastInDim S800000x1 ![0] bcast_S800000_S800000x1_0
          (select
            (cmpi .slt
              (shapeCast _ (extractStridedSlice S1x800000 ![0, 0] e slices_S2x800000_S1x800000_0_0) shapeCasts_S1x800000_S800000)
              (broadcastInDim S800000 ![] bcast_S_S800000 (constantI S_ 32 0#32)))
            (addi
              (shapeCast _ (extractStridedSlice S1x800000 ![0, 0] e slices_S2x800000_S1x800000_0_0) shapeCasts_S1x800000_S800000)
              (broadcastInDim S800000 ![] bcast_S_S800000 (constantI S_ 32 50000#32)))
            (shapeCast _ (extractStridedSlice S1x800000 ![0, 0] e slices_S2x800000_S1x800000_0_0) shapeCasts_S1x800000_S800000)))))
    (broadcastInDim S50000x128 ![0, 1] bcast_S50000x1_S50000x128_0_1
      (maximumf
        (Host.scatterAdd (F := Ideal) scatter_S50000x1_S800000x1_S800000x1_1_0_0_1
          (broadcastInDim S50000x1 ![] bcast_S_S50000x1 (constant (F := Ideal) S_ .f32 0x00000000#32))
          (broadcastInDim S800000x1 ![0] bcast_S800000_S800000x1_0
            (shapeCast _ (extractStridedSlice S1x800000 ![1, 0] e slices_S2x800000_S1x800000_1_0) shapeCasts_S1x800000_S800000))
          (broadcastInDim S800000x1 ![] bcast_S_S800000x1 (constant (F := Ideal) S_ .f32 0x3F800000#32)))
        (broadcastInDim S50000x1 ![] bcast_S_S50000x1 (constant (F := Ideal) S_ .f32 0x3F800000#32))))

set_option maxRecDepth 8192 in
/-- The reference's operations %32–%53 are `agg` of its message array and its edge list. -/
theorem agg_eq (x0 x1 : (⟨S50000x128, .f32⟩ : BufTy).Contents (Elt Ideal)) (x2 x3 : (⟨S128, .f32⟩ : BufTy).Contents (Elt Ideal))
    (x4 : (⟨S128x128, .f32⟩ : BufTy).Contents (Elt Ideal)) (x5 : (⟨S128, .f32⟩ : BufTy).Contents (Elt Ideal))
    (x9 : (⟨S2x800000, .i32⟩ : BufTy).Contents (Elt Ideal)) :
    val_main_v53 (F := Ideal) x0 x1 x2 x3 x4 x5 x9 = agg (val_main_v31 (F := Ideal) x0 x1 x2 x3 x4 x5) x9 := by
  unfold val_main_v53 val_main_v52 val_main_v51 val_main_v50 val_main_cst_8 val_main_v49 val_main_v48 val_main_v47 val_main_cst_7
    val_main_v46 val_main_cst_6 val_main_v45 val_main_v44 val_main_v43 val_main_cst_5 val_main_v42 val_main_v41 val_main_v40
    val_main_v39 val_main_v38 val_main_c_4 val_main_v37 val_main_v36 val_main_c val_main_v35 val_main_v34 val_main_v33 val_main_v32 agg
  rfl

/-- The reference's first 26 operations make the specification's hidden array. -/
theorem hidden_eq (x0 x1 : NodeArr) (x2 x3 : FeatVec) :
    val_main_v25 (F := Ideal) x0 x1 x2 x3 = hidden x0 x1 x2 x3 := by
  funext i
  obtain ⟨r, j, rfl⟩ : ∃ (r : Fin 50000) (j : Fin 128), i = ix2 r j := ⟨i 0, i 1, eq_ix2 i⟩
  have e1 : ∀ k : Fin 128, idx_main_v0 (idx_main_v1 (idx_main_v11 (ix2 r j))) k = ix2 r k := fun k =>
    funext fun a => Fin.ext (by match a with | ⟨0, _⟩ => rfl | ⟨1, _⟩ => rfl)
  have e2 : ∀ k : Fin 128, idx_main_v7 (idx_main_v8 (idx_main_v16 (ix2 r j))) k = ix2 r k := fun k =>
    funext fun a => Fin.ext (by match a with | ⟨0, _⟩ => rfl | ⟨1, _⟩ => rfl)
  have e3 : ∀ k k' : Fin 128, idx_main_v0 (idx_main_v1 (idx_main_v4 (ix2 r k))) k' = ix2 r k' := fun k k' =>
    funext fun a => Fin.ext (by match a with | ⟨0, _⟩ => rfl | ⟨1, _⟩ => rfl)
  have e4 : idx_main_v18 (idx_main_v19 (ix2 r j)) = ix1 j := funext fun a => Fin.ext (by match a with | ⟨0, _⟩ => rfl)
  have e5 : idx_main_v21 (idx_main_v22 (ix2 r j)) = ix1 j := funext fun a => Fin.ext (by match a with | ⟨0, _⟩ => rfl)
  simp only [val_main_v25_apply, val_main_v24_apply, val_main_v23_apply, val_main_v20_apply, val_main_v17_apply,
    val_main_v12_apply, val_main_v11_apply, val_main_v16_apply, val_main_v15_apply, val_main_v14_apply,
    val_main_v10_apply, val_main_v8_apply, val_main_v7_apply, val_main_v6_apply, val_main_v5_apply, val_main_v4_apply,
    val_main_v3_apply, val_main_v1_apply, val_main_v0_apply, val_main_v2_apply, val_main_v9_apply, val_main_v13_apply,
    val_main_v19_apply, val_main_v18_apply, val_main_v22_apply, val_main_v21_apply, val_main_call0_v0_apply,
    val_main_call0_cst_apply, val_main_cst_apply, val_main_cst_0_apply, val_main_cst_1_apply, val_main_cst_2_apply,
    val_main_cst_3_apply, e1, e2, e3, e4, e5, hidden_at, hiddenRow, centred, mean, variance, rowOf,
    Ideal.ofBits_def, Ideal.mulf_def, Ideal.addf_def, Ideal.subf_def, Ideal.maximumf_def, Ideal.hostDivf_def,
    Ideal.hostUnary_rsqrt_def, Ideal.ofBits_zero_f32, zero_add]

/-- The projection, bias and relu make the specification's message array of the hidden array. -/
theorem message_eq (x0 x1 : NodeArr) (x2 x3 : FeatVec) (x4 : WeightMat) (x5 : FeatVec) :
    val_main_v31 (F := Ideal) x0 x1 x2 x3 x4 x5 = message (hidden x0 x1 x2 x3) x4 x5 := by
  funext i
  obtain ⟨r, c, rfl⟩ : ∃ (r : Fin 50000) (c : Fin 128), i = ix2 r c := ⟨i 0, i 1, eq_ix2 i⟩
  have f1 : ∀ k : Fin 128, lidx_main_v27 (ix2 r c) k = ix2 r k := fun k =>
    funext fun a => Fin.ext (by match a with | ⟨0, _⟩ => rfl | ⟨1, _⟩ => rfl)
  have f2 : ∀ k : Fin 128, idx_main_v26 (ridx_main_v27 (ix2 r c) k) = ix2 c k := fun k =>
    funext fun a => Fin.ext (by match a with | ⟨0, _⟩ => rfl | ⟨1, _⟩ => rfl)
  have f3 : idx_main_v28 (idx_main_v29 (ix2 r c)) = ix1 c := funext fun a => Fin.ext (by match a with | ⟨0, _⟩ => rfl)
  simp only [val_main_v31_apply, val_main_v30_apply, val_main_v27_apply, val_main_v26_apply, val_main_v29_apply,
    val_main_v28_apply, val_main_call1_v0_apply, val_main_call1_cst_apply, hidden_eq, f1, f2, f3,
    message_at, messageRow, linRow, rowOf, Ideal.ofBits_def, Ideal.addf_def, Ideal.maximumf_def]

/-- The host's matrix product of a per-node array with a 128 x 128 matrix (contracting the array's feature axis with
    the matrix's first axis), read at an index: the sum over `k` of `a (row, k) * b (k, column)`. -/
theorem dot_at (a : NodeArr) (b : WeightMat) (i : S50000x128.Idx) :
    Host.dotGeneral (F := Ideal) (φ₁ := .f32) (φ₂ := .f32) dot_S50000x128_S128x128_S50000x128_1_0_0_1_n_n none a b i
      = ∑ k : Fin 128, a (lidx_main_v27 i k) * b (ridx_main_v27 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v27 i k := funext fun a => Fin.ext (by
    match a with
    | ⟨0, _⟩ => exact lhs_main_v27_0 _ _
    | ⟨1, _⟩ => exact (lhs_main_v27_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v27 i k := funext fun a => Fin.ext (by
    match a with
    | ⟨0, _⟩ => exact (rhs_main_v27_0 _ _).trans hk
    | ⟨1, _⟩ => exact rhs_main_v27_1 _ _)
  rw [el, er]

/-- The reference's last eight operations, of ANY aggregated array `A` and hidden array `H`: the two transposed
    products, the bias and their sum are the specification's output rows. -/
theorem out_gen (A H : NodeArr) (x6 : WeightMat) (x7 : FeatVec) (x8 : WeightMat) :
    addf (addf (Host.dotGeneral (F := Ideal) (φ₁ := .f32) (φ₂ := .f32) dot_S50000x128_S128x128_S50000x128_1_0_0_1_n_n none A (val_main_v54 (F := Ideal) x6))
        (val_main_v57 (F := Ideal) x7))
      (Host.dotGeneral (F := Ideal) (φ₁ := .f32) (φ₂ := .f32) dot_S50000x128_S128x128_S50000x128_1_0_0_1_n_n none H (val_main_v59 (F := Ideal) x8))
      = combine A H x6 x7 x8 := by
  funext i
  obtain ⟨r, c, rfl⟩ : ∃ (r : Fin 50000) (c : Fin 128), i = ix2 r c := ⟨i 0, i 1, eq_ix2 i⟩
  have g1 : ∀ k : Fin 128, lidx_main_v27 (ix2 r c) k = ix2 r k := fun k =>
    funext fun a => Fin.ext (by match a with | ⟨0, _⟩ => rfl | ⟨1, _⟩ => rfl)
  have g2 : ∀ k : Fin 128, idx_main_v54 (ridx_main_v27 (ix2 r c) k) = ix2 c k := fun k =>
    funext fun a => Fin.ext (by match a with | ⟨0, _⟩ => rfl | ⟨1, _⟩ => rfl)
  have g3 : idx_main_v56 (idx_main_v57 (ix2 r c)) = ix1 c := funext fun a => Fin.ext (by match a with | ⟨0, _⟩ => rfl)
  have g5 : ∀ k : Fin 128, idx_main_v59 (ridx_main_v27 (ix2 r c) k) = ix2 c k := fun k =>
    funext fun a => Fin.ext (by match a with | ⟨0, _⟩ => rfl | ⟨1, _⟩ => rfl)
  rw [addf_apply, addf_apply, dot_at, dot_at]
  simp only [val_main_v54_apply, val_main_v57_apply, val_main_v56_apply, val_main_v59_apply, g1, g2, g3, g5,
    combine_at, outRow, linRow, rowOf]

/-- The reference's result is the specification's combination of its own aggregated and hidden arrays. -/
theorem out_eq (x0 x1 : NodeArr) (x2 x3 : FeatVec) (x4 : WeightMat) (x5 : FeatVec) (x6 : WeightMat) (x7 : FeatVec)
    (x8 : WeightMat) (x9 : EdgeList) :
    val_main_v61 (F := Ideal) x0 x1 x2 x3 x4 x5 x6 x7 x8 x9
      = combine (val_main_v53 (F := Ideal) x0 x1 x2 x3 x4 x5 x9) (val_main_v25 (F := Ideal) x0 x1 x2 x3) x6 x7 x8 :=
  out_gen (val_main_v53 (F := Ideal) x0 x1 x2 x3 x4 x5 x9) (val_main_v25 (F := Ideal) x0 x1 x2 x3) x6 x7 x8

/-- The reference's result is the specification's: LayerNorm, projection, the unopened aggregation, and the combination. -/
theorem result_eq (x0 x1 : NodeArr) (x2 x3 : FeatVec) (x4 : WeightMat) (x5 : FeatVec) (x6 : WeightMat) (x7 : FeatVec)
    (x8 : WeightMat) (x9 : EdgeList) :
    val_main_v61 (F := Ideal) x0 x1 x2 x3 x4 x5 x6 x7 x8 x9
      = combine (agg (message (hidden x0 x1 x2 x3) x4 x5) x9) (hidden x0 x1 x2 x3) x6 x7 x8 :=
  (out_eq x0 x1 x2 x3 x4 x5 x6 x7 x8 x9).trans
    (congrArg₂ (fun A H => combine A H x6 x7 x8)
      ((agg_eq x0 x1 x2 x3 x4 x5 x9).trans (congrArg (fun p => agg p x9) (message_eq x0 x1 x2 x3 x4 x5)))
      (hidden_eq x0 x1 x2 x3))

end Cert.ReferenceIdeal.Bridge

end
-- ==== Proof.lean ====
/-
  One GNN block — LayerNorm, ReLU, dropout mask, a SAGE convolution with projected messages and mean
  aggregation — as two Pallas kernels with a gather / scatter-add stretch of host operations between them,
  against the plain jnp program: equal at the ideal instance.

  Both programs compute, row by row of the 50000 x 128 node array,
      h = max(((x - mean x) · (var x + ε)^(-1/2)) · γ + β, 0) · mask,      p = max(h · Wpᵀ + bp, 0),
  then the mean over incoming edges  agg = segment_sum(p[src], tgt) / max(segment_sum(1, tgt), 1),  then
      out = (agg · Wlᵀ + bl) + h · Wrᵀ.
  The kernels round their matmul operands to bf16, which is the identity on the extended reals; a kernel's
  row sum and the host's reduce are the same finite sum; a kernel's matmul into a zero accumulator and the
  host's dot_general are the same finite sum of products; ε, 128 and 0 are the same words on both sides and
  are never evaluated. No law used moves a factor across a sum or cancels anything, so the inputs'
  finiteness is not needed: the precondition is never opened. The aggregation is the same host operations
  in the same order in both programs and is carried as one unopened function.

  The three frames are the generated ones (the reference's is its generated run with the result dropped);
  the ideal pass rewrote nothing, so `preserves` is trivial.
-/
import proofs.«158922_j824633721540_2_alg».proof.Defs
import proofs.«158922_j824633721540_2_alg».proof.Proof.Gen.Kernel
import proofs.«158922_j824633721540_2_alg».proof.Proof.Gen.Kernel.Skeleton
import proofs.«158922_j824633721540_2_alg».proof.Proof.Gen.Kernel.Launch
import proofs.«158922_j824633721540_2_alg».proof.Proof.Gen.Kernel.Points
import proofs.«158922_j824633721540_2_alg».proof.Proof.Gen.Kernel.Frame
import proofs.«158922_j824633721540_2_alg».proof.Proof.Gen.KernelIdeal
import proofs.«158922_j824633721540_2_alg».proof.Proof.Gen.KernelIdeal.Skeleton
import proofs.«158922_j824633721540_2_alg».proof.Proof.Gen.KernelIdeal.Launch
import proofs.«158922_j824633721540_2_alg».proof.Proof.Gen.KernelIdeal.Points
import proofs.«158922_j824633721540_2_alg».proof.Proof.Gen.KernelIdeal.Frame
import proofs.«158922_j824633721540_2_alg».proof.Proof.Gen.ReferenceIdeal
import proofs.«158922_j824633721540_2_alg».proof.Proof.Gen.ReferenceIdeal.Run
import proofs.«158922_j824633721540_2_alg».proof.Proof.Gen.ReferenceIdeal.Read
import proofs.«158922_j824633721540_2_alg».proof.Proof.Gen.Pre_finite_inputs
import proofs.«158922_j824633721540_2_alg».proof.Proof.KernelValue
import proofs.«158922_j824633721540_2_alg».proof.Proof.RefBridge
import Idealize.ShloMosaic.Adequacy
import Idealize.ShloMosaic.Init

noncomputable section

namespace Cert.Proof

open Idealize.ShloMosaic Idealize.SL.Sem

/-- The two programs' aggregation stretches are the same operations on the same shapes: one function. -/
theorem agg_same : Cert.KernelIdeal.Stretch.aggK = Cert.ReferenceIdeal.Bridge.agg := rfl

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the block's output of those arguments:
    the kernel's run read through its three segments, the reference's generated run read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, ?_, ?_⟩
  · exact (θ_run Cert.KernelIdeal.defs _ _).mono
      (fun r h c => ⟨(h c).1.trans (Cert.KernelIdeal.Whole.W3_result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v61_eq, Cert.ReferenceIdeal.Bridge.result_eq, a0, a1, a2, a3, a4, a5, a6, a7, a8, a9,
      ← agg_same]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
